-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S4x64x64 : Shape := ⟨3, ![4, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S4x64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg3
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S4x64x64 : Shape := ⟨3, ![4, 64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S5000x64 : Shape := ⟨2, ![5000, 64]⟩
abbrev S1x64 : Shape := ⟨2, ![1, 64]⟩

abbrev nBuf : Space → Nat
  | .hbm => 84
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S4x64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64x64, .f32⟩
  | .hbm, ⟨37, _⟩ => ⟨S64x64, .f32⟩
  | .hbm, ⟨38, _⟩ => ⟨S1x64x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64x64, .f32⟩
  | .hbm, ⟨60, _⟩ => ⟨S64x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S1x64x64, .f32⟩
  | .hbm, ⟨82, _⟩ => ⟨S64x64, .f32⟩
  | .hbm, ⟨83, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem6_0 : DmaSem sig := 33
abbrev cc2_sem6_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_2_0_0 : S4x64x64.Slices ![2, 0, 0] S1x64x64
  shapeCasts_S64_S1x64 : S64.ShapeCasts S1x64
  slices_S4x64x64_S1x64x64_3_0_0 : S4x64x64.Slices ![3, 0, 0] S1x64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26_1) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43_1) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S4x64x64 : Shape := ⟨3, ![4, 64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64x64 : Shape := ⟨3, ![1, 64, 64]⟩
abbrev S64x64 : Shape := ⟨2, ![64, 64]⟩
abbrev S1600000x64 : Shape := ⟨2, ![1600000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S4x64x64, .f32⟩
  | .hbm, ⟨4, _⟩ => ⟨S64, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S1x64x64, .f32⟩
  | .hbm, ⟨20, _⟩ => ⟨S64x64, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64x64, .f32⟩
  | .hbm, ⟨50, _⟩ => ⟨S64x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x64x64, .f32⟩
  | .hbm, ⟨82, _⟩ => ⟨S64x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S100000x64, .f32⟩
  | .hbm, ⟨113, _⟩ => ⟨S1x64x64, .f32⟩
  | .hbm, ⟨114, _⟩ => ⟨S64x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S4x64x64_S1x64x64_0_0_0 : S4x64x64.Slices ![0, 0, 0] S1x64x64
  shapeCasts_S1x64x64_S64x64 : S1x64x64.ShapeCasts S64x64
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result named.

  @main is eight segments — three stretches of host operations, then each of the three kernel regions with the host
  stretch before it — and the buffer contents at each boundary are a fold from the launch memory. After the last region
  every unscoped buffer holds that fold's last stage, so besides the five arguments (which end as launched) the result
  buffer ends at the last stage read at the result's reference.
-/
import proofs.«128678_j82772609728706_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the five arguments as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Whole

end
-- ==== Proof.ChebLaws.lean ====
/-
  The arithmetic shared by both sides of the Chebyshev graph convolution, over the extended reals.

  The float words the two programs spell denote the reals -1, -2, -4 and 2, and dividing a product by the
  word for 2 is multiplying it by one half on EVERY extended real (the quotient by a nonzero real is the
  product with its reciprocal, infinities included), so
      (-2 · h) / 2 = -1 · h      and      (-4 · h) / 2 = -2 · h
  hold with no finiteness assumption: multiplication on the extended reals is associative and commutative.
-/
import Idealize.ShloMosaic.PureOps.Ideal
import Idealize.ShloMosaic.PureOps.Ideal.Laws

noncomputable section

namespace Cert.Cheb

open Idealize.ShloMosaic

/-- The word `0x40000000` is the real 2. -/
theorem word_two : Ideal.ofBits .f32 0x40000000#32 = ((2 : ℝ) : EReal) := by
  simp [Ideal.ofBits, Ideal.ieee, -EReal.coe_mul]; norm_num
/-- The word `0xC0000000` is the real -2. -/
theorem word_neg_two : Ideal.ofBits .f32 0xC0000000#32 = ((-2 : ℝ) : EReal) := by
  simp [Ideal.ofBits, Ideal.ieee, -EReal.coe_mul]; norm_num
/-- The word `0xBF800000` is the real -1. -/
theorem word_neg_one : Ideal.ofBits .f32 0xBF800000#32 = ((-1 : ℝ) : EReal) := by
  simp [Ideal.ofBits, Ideal.ieee, -EReal.coe_mul]; norm_num
/-- The word `0xC0800000` is the real -4. -/
theorem word_neg_four : Ideal.ofBits .f32 0xC0800000#32 = ((-4 : ℝ) : EReal) := by
  simp [Ideal.ofBits, Ideal.ieee, -EReal.coe_mul]; norm_num

/-- `(-2 · h) / 2 = -1 · h` on every extended real. -/
theorem half_neg_two (h : EReal) :
    Ideal.div (Ideal.ofBits .f32 0xC0000000#32 * h) (Ideal.ofBits .f32 0x40000000#32) = Ideal.ofBits .f32 0xBF800000#32 * h := by
  rw [word_two, word_neg_two, word_neg_one, Ideal.div_coe (by norm_num : (2 : ℝ) ≠ 0), mul_comm _ h, mul_assoc, ← EReal.coe_mul, mul_comm h]
  norm_num

/-- `(-4 · h) / 2 = -2 · h` on every extended real. -/
theorem half_neg_four (h : EReal) :
    Ideal.div (Ideal.ofBits .f32 0xC0800000#32 * h) (Ideal.ofBits .f32 0x40000000#32) = Ideal.ofBits .f32 0xC0000000#32 * h := by
  rw [word_two, word_neg_four, word_neg_two, Ideal.div_coe (by norm_num : (2 : ℝ) ≠ 0), mul_comm _ h, mul_assoc, ← EReal.coe_mul, mul_comm h]
  norm_num

end Cert.Cheb

end
-- ==== Proof.ChebSpec.lean ====
/-
  The Chebyshev graph convolution of order 3 as whole-array functions, index by index.

  With `h` the normalised neighbourhood sum of the previous term (computed outside the kernels, by the same
  gather and scatter on both sides), the terms are
      T1 = -1 · h1 + 0 · x,        T2 = (-2 · h2 + 0 · T1) - x,        T3 = (-2 · h3 + 0 · T2) - T1
  and the result accumulates one [n,64] × [64,64] product per order, in order, then the bias row:
      (((x·W0 + T1·W1) + T2·W2) + T3·W3) + b.
  The reference spells the scalings as `(-2 · h) / 2 + x · 0` and `(-4 · h) / 2 + T · 0`; these are the same
  extended reals (`combine1R_eq`, `combine2R_eq`).
-/
import proofs.«128678_j82772609728706_1_alg».proof.Proof.ChebLaws
import Idealize.ShloMosaic.Lib.ValueIdx

noncomputable section

namespace Cert.Cheb

open Idealize.ShloMosaic

/-- Node features: 100000 nodes, 64 channels. -/
abbrev Sn : Shape := ⟨2, ![100000, 64]⟩
/-- One order's weights. -/
abbrev Sw : Shape := ⟨2, ![64, 64]⟩
/-- The bias as a row. -/
abbrev Sb : Shape := ⟨2, ![1, 64]⟩

/-- Row `i 0`, channel `k` of a node array. -/
abbrev rowAt (i : Sn.Idx) (k : Fin 64) : Sn.Idx := fun a => match a with
  | ⟨0, _⟩ => ⟨(i 0).val, (i 0).isLt⟩
  | ⟨1, _⟩ => ⟨k.val, k.isLt⟩
/-- Row `k`, column `i 1` of a weight matrix. -/
abbrev colAt (i : Sn.Idx) (k : Fin 64) : Sw.Idx := fun a => match a with
  | ⟨0, _⟩ => ⟨k.val, k.isLt⟩
  | ⟨1, _⟩ => ⟨(i 1).val, (i 1).isLt⟩
/-- Column `i 1` of the bias row. -/
abbrev biasAt (i : Sn.Idx) : Sb.Idx := fun a => match a with
  | ⟨0, _⟩ => ⟨0, Nat.one_pos⟩
  | ⟨1, _⟩ => ⟨(i 1).val, (i 1).isLt⟩

/-- The first-order term: `-1 · h + 0 · x`. -/
def combine1 (h x : FVec Ideal Sn .f32) : FVec Ideal Sn .f32 := fun i =>
  Ideal.ofBits .f32 0xBF800000#32 * h i + Ideal.ofBits .f32 0x00000000#32 * x i

/-- The first-order term as the reference spells it: `(-2 · h) / 2 + x · 0`. -/
def combine1R (h x : FVec Ideal Sn .f32) : FVec Ideal Sn .f32 := fun i =>
  Ideal.div (Ideal.ofBits .f32 0xC0000000#32 * h i) (Ideal.ofBits .f32 0x40000000#32) + x i * Ideal.ofBits .f32 0x00000000#32

theorem combine1R_eq (h x : FVec Ideal Sn .f32) : combine1R h x = combine1 h x := by
  funext i
  show Ideal.div (Ideal.ofBits .f32 0xC0000000#32 * h i) (Ideal.ofBits .f32 0x40000000#32) + x i * Ideal.ofBits .f32 0x00000000#32
    = Ideal.ofBits .f32 0xBF800000#32 * h i + Ideal.ofBits .f32 0x00000000#32 * x i
  rw [half_neg_two, mul_comm (x i)]

/-- A higher-order term: `(-2 · h + 0 · t) - p`, `t` the previous term and `p` the one before it. -/
def combine2 (h t p : FVec Ideal Sn .f32) : FVec Ideal Sn .f32 := fun i =>
  (Ideal.ofBits .f32 0xC0000000#32 * h i + Ideal.ofBits .f32 0x00000000#32 * t i) - p i

/-- A higher-order term as the reference spells it: `((-4 · h) / 2 + t · 0) - p`. -/
def combine2R (h t p : FVec Ideal Sn .f32) : FVec Ideal Sn .f32 := fun i =>
  (Ideal.div (Ideal.ofBits .f32 0xC0800000#32 * h i) (Ideal.ofBits .f32 0x40000000#32) + t i * Ideal.ofBits .f32 0x00000000#32) - p i

theorem combine2R_eq (h t p : FVec Ideal Sn .f32) : combine2R h t p = combine2 h t p := by
  funext i
  show (Ideal.div (Ideal.ofBits .f32 0xC0800000#32 * h i) (Ideal.ofBits .f32 0x40000000#32) + t i * Ideal.ofBits .f32 0x00000000#32) - p i
    = (Ideal.ofBits .f32 0xC0000000#32 * h i + Ideal.ofBits .f32 0x00000000#32 * t i) - p i
  rw [half_neg_four, mul_comm (t i)]

/-- A node array times one order's weights: entry (r, c) is the sum over the 64 channels `k` of X[r,k] · W[k,c]. -/
def prod (X : FVec Ideal Sn .f32) (W : FVec Ideal Sw .f32) : FVec Ideal Sn .f32 := fun i =>
  ∑ k : Fin 64, X (rowAt i k) * W (colAt i k)

/-- Orders 0 and 1 accumulated. -/
def acc1 (x t1 : FVec Ideal Sn .f32) (w0 w1 : FVec Ideal Sw .f32) : FVec Ideal Sn .f32 := fun i =>
  prod x w0 i + prod t1 w1 i

/-- One more order accumulated onto `r`. -/
def accNext (r t : FVec Ideal Sn .f32) (w : FVec Ideal Sw .f32) : FVec Ideal Sn .f32 := fun i =>
  r i + prod t w i

/-- The last order accumulated onto `r`, then the bias row added to every node. -/
def accLast (r t : FVec Ideal Sn .f32) (w : FVec Ideal Sw .f32) (b : FVec Ideal Sb .f32) : FVec Ideal Sn .f32 := fun i =>
  (r i + prod t w i) + b (biasAt i)

end Cert.Cheb

end
-- ==== Proof.Reference.lean ====
/-
  The reference's result is the Chebyshev convolution of `ChebSpec`.

  Both programs compute the normalised neighbourhood sum `N(y) = n ⊙ scatter_dst (gather_src (y ⊙ n))` (with
  `n = max(deg, 1)^(-1/2)` broadcast over the channels) by the same host operations, so it is kept here as ONE
  function `nbr` of the array it is applied to and of the two edge lists, never opened. Around it the reference forms
      T1 = (-2 · N(x)) / 2 + x · 0,   T2 = ((-4 · N(T1)) / 2 + T1 · 0) - x,   T3 = ((-4 · N(T2)) / 2 + T2 · 0) - T1
  which are the terms of `ChebSpec` (`combine1R_eq`, `combine2R_eq`), and adds the four matrix products in order
  and the bias, each product read at an index as the sum over the 64 channels.
-/
import proofs.«128678_j82772609728706_1_alg».proof.Proof.Gen.ReferenceIdeal.Read
import proofs.«128678_j82772609728706_1_alg».proof.Proof.ChebSpec

noncomputable section

namespace Cert.Cheb

open Cert.ReferenceIdeal Cert.ReferenceIdeal.Gen Cert.ReferenceIdeal.Read Idealize.ShloMosaic Idealize.ShloMosaic.TcCoe

/-- The normalised neighbourhood sum of a node array `y` along the edges (src → dst): scale by the degree
    normalisation, gather the source rows, add them into the destination rows, scale again. -/
def nbr (y : FVec Ideal S100000x64 .f32) (src dst : (⟨S1600000, .i32⟩ : BufTy).Contents (Elt Ideal)) : FVec Ideal S100000x64 .f32 :=
  mulf (F := Ideal)
    (Host.scatterAdd (F := Ideal) scatter_S100000x64_S1600000x1_S1600000x64_1_0_0_1 (val_main_v20 (F := Ideal)) (val_main_v21 (F := Ideal) dst)
      (Host.gather gather_S100000x64_S1600000x1_S1600000x64_1_0_n_n_0_1_164
        (mulf (F := Ideal) y (val_main_v11 (F := Ideal) dst)) (val_main_v18 (F := Ideal) src)))
    (val_main_v23 (F := Ideal) dst)

/-- The bias vector as a [1,64] row. -/
def biasRow (b : (⟨S64, .f32⟩ : BufTy).Contents (Elt Ideal)) : FVec Ideal Sb .f32 := fun j => b (idx_main_v88 j)

/-- The whole convolution as one function of the five arguments. -/
def result (x : FVec Ideal S100000x64 .f32) (src dst : (⟨S1600000, .i32⟩ : BufTy).Contents (Elt Ideal))
    (W : (⟨S4x64x64, .f32⟩ : BufTy).Contents (Elt Ideal)) (b : (⟨S64, .f32⟩ : BufTy).Contents (Elt Ideal)) : FVec Ideal Sn .f32 :=
  accLast
    (accNext (acc1 x (combine1 (nbr x src dst) x) (val_main_v9 (F := Ideal) W) (val_main_v33 (F := Ideal) W))
      (combine2 (nbr (combine1 (nbr x src dst) x) src dst) (combine1 (nbr x src dst) x) x) (val_main_v59 (F := Ideal) W))
    (combine2 (nbr (combine2 (nbr (combine1 (nbr x src dst) x) src dst) (combine1 (nbr x src dst) x) x) src dst)
      (combine2 (nbr (combine1 (nbr x src dst) x) src dst) (combine1 (nbr x src dst) x) x) (combine1 (nbr x src dst) x))
    (val_main_v85 (F := Ideal) W) (biasRow b)

variable (x0 : (⟨S100000x64, .f32⟩ : BufTy).Contents (Elt Ideal)) (x1 x2 : (⟨S1600000, .i32⟩ : BufTy).Contents (Elt Ideal))
  (x3 : (⟨S4x64x64, .f32⟩ : BufTy).Contents (Elt Ideal)) (x4 : (⟨S64, .f32⟩ : BufTy).Contents (Elt Ideal))

/-! ## The three neighbourhood sums are one function -/

/-- The reference's first neighbourhood sum. -/
theorem ref_nbr1 : val_main_v24 (F := Ideal) x0 x1 x2 = nbr x0 x1 x2 := by
  simp only [val_main_v24, val_main_v22, val_main_v19, val_main_v12, nbr]

/-- Its second neighbourhood sum is `nbr` of the first-order term: the same operations, printed again. -/
theorem ref_nbr2 : val_main_v49 (F := Ideal) x0 x1 x2 = nbr (val_main_v31 (F := Ideal) x0 x1 x2) x1 x2 := by
  simp only [val_main_v49, val_main_v48, val_main_v47, val_main_v46, val_main_v45, val_main_cst_10, val_main_v44, val_main_v43, val_main_v42,
    val_main_v41, val_main_v40, val_main_c_9, val_main_v39, val_main_v38, val_main_c_8, val_main_v37, val_main_v36,
    nbr, val_main_v23, val_main_v21, val_main_v20, val_main_cst_4, val_main_v18, val_main_v17, val_main_v16, val_main_v15, val_main_c_3,
    val_main_v14, val_main_v13, val_main_c, val_main_v11]

/-- Its third neighbourhood sum is `nbr` of the second-order term. -/
theorem ref_nbr3 : val_main_v75 (F := Ideal) x0 x1 x2 = nbr (val_main_v57 (F := Ideal) x0 x1 x2) x1 x2 := by
  simp only [val_main_v75, val_main_v74, val_main_v73, val_main_v72, val_main_v71, val_main_cst_16, val_main_v70, val_main_v69, val_main_v68,
    val_main_v67, val_main_v66, val_main_c_15, val_main_v65, val_main_v64, val_main_c_14, val_main_v63, val_main_v62,
    nbr, val_main_v23, val_main_v21, val_main_v20, val_main_cst_4, val_main_v18, val_main_v17, val_main_v16, val_main_v15, val_main_c_3,
    val_main_v14, val_main_v13, val_main_c, val_main_v11]

/-! ## The three terms -/

/-- The reference's first-order term. -/
theorem ref_term1 : val_main_v31 (F := Ideal) x0 x1 x2 = combine1 (nbr x0 x1 x2) x0 := by
  rw [← combine1R_eq, ← ref_nbr1]
  funext i
  rw [val_main_v31_apply, val_main_v28_apply, val_main_v26_apply, val_main_v25_apply, val_main_cst_5_apply, val_main_v27_apply,
    val_main_cst_6_apply, val_main_v30_apply, val_main_v29_apply, val_main_cst_7_apply]
  rfl

/-- Its second-order term. -/
theorem ref_term2 : val_main_v57 (F := Ideal) x0 x1 x2
    = combine2 (nbr (val_main_v31 (F := Ideal) x0 x1 x2) x1 x2) (val_main_v31 (F := Ideal) x0 x1 x2) x0 := by
  rw [← combine2R_eq, ← ref_nbr2]
  funext i
  rw [val_main_v57_apply, val_main_v56_apply, val_main_v53_apply, val_main_v51_apply, val_main_v50_apply, val_main_cst_11_apply,
    val_main_v52_apply, val_main_cst_12_apply, val_main_v55_apply, val_main_v54_apply, val_main_cst_13_apply]
  rfl

/-- Its third-order term. -/
theorem ref_term3 : val_main_v83 (F := Ideal) x0 x1 x2
    = combine2 (nbr (val_main_v57 (F := Ideal) x0 x1 x2) x1 x2) (val_main_v57 (F := Ideal) x0 x1 x2) (val_main_v31 (F := Ideal) x0 x1 x2) := by
  rw [← combine2R_eq, ← ref_nbr3]
  funext i
  rw [val_main_v83_apply, val_main_v82_apply, val_main_v79_apply, val_main_v77_apply, val_main_v76_apply, val_main_cst_17_apply,
    val_main_v78_apply, val_main_cst_18_apply, val_main_v81_apply, val_main_v80_apply, val_main_cst_19_apply]
  rfl

/-! ## The result -/

/-- The reference's result, index by index: the four products as sums over the channels, added in order, and the bias. -/
theorem reference_eq : val_main_v90 (F := Ideal) x0 x1 x2 x3 x4 = result x0 x1 x2 x3 x4 := by
  funext i
  rw [val_main_v90_apply, val_main_v87_apply, val_main_v61_apply, val_main_v35_apply, val_main_v10_apply, val_main_v34_apply,
    val_main_v60_apply, val_main_v86_apply, val_main_v89_apply, val_main_v88_apply]
  rw [ref_term3, ref_term2, ref_term1]
  rfl

end Cert.Cheb

end
-- ==== Proof.BodyValues.lean ====
/-
  What the three kernel bodies compute on one block of 5000 rows, entry by entry, over the extended reals.

  A body's matrix product of a [5000,64] block with a [64,64] weight matrix, accumulated into zero, is at
  entry (p, q) the sum over the 64 channels k of X[p,k] · W[k,q]; the changes of float format around it are
  the identity. The combine steps are pointwise. So each stored value is, at (p, q):
    first kernel   : T1 = -1·h + 0·x,  and  Σ x[p,k]·W0[k,q] + Σ T1[p,k]·W1[k,q];
    second kernel  : T2 = (-2·h + 0·t) - p,  and  r[p,q] + Σ T2[p,k]·W2[k,q];
    third kernel   : (r[p,q] + Σ T3[p,k]·W3[k,q]) + b[0,q]  with  T3 = (-2·h + 0·t) - p.
-/
import proofs.«128678_j82772609728706_1_alg».proof.Proof.Gen.KernelIdeal.Skeleton
import proofs.«128678_j82772609728706_1_alg».proof.Proof.ChebSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The block product as a sum over the channels -/

theorem lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_chan (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_chan (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] block times a [64,64] matrix into a zero accumulator, at entry (p, q): the sum over the 64 channels. -/
theorem blockProd_apply {φ ψ : FTy} (X : FVec Ideal S5000x64 φ) (W : FVec Ideal S64x64 ψ) (p : Fin 5000) (q : Fin 64) :
    matmul dot_S5000x64_S64x64_S5000x64_1_0_0_1_n_n none X W (constant S5000x64 .f32 0x00000000#32) (ix2 p q)
      = ∑ k : Fin 64, X (ix2 p k) * W (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_chan _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_chan _ _).trans hk
    | ⟨1, _⟩ => exact rhs_col _ _)
  rw [el, er]

/-- Two such products added. -/
theorem twoProds_apply {φ ψ : FTy} (X Y : FVec Ideal S5000x64 φ) (W0 W1 : FVec Ideal S64x64 ψ) (p : Fin 5000) (q : Fin 64) :
    addf (matmul dot_S5000x64_S64x64_S5000x64_1_0_0_1_n_n none X W0 (constant S5000x64 .f32 0x00000000#32))
         (matmul dot_S5000x64_S64x64_S5000x64_1_0_0_1_n_n none Y W1 (constant S5000x64 .f32 0x00000000#32)) (ix2 p q)
      = (∑ k : Fin 64, X (ix2 p k) * W0 (ix2 k q)) + ∑ k : Fin 64, Y (ix2 p k) * W1 (ix2 k q) := by
  rw [ValueIdx.addf_apply, blockProd_apply, blockProd_apply]

/-- A running result plus one product. -/
theorem plusProd_apply {φ ψ : FTy} (R : FVec Ideal S5000x64 .f32) (Y : FVec Ideal S5000x64 φ) (W : FVec Ideal S64x64 ψ) (p : Fin 5000) (q : Fin 64) :
    addf R (matmul dot_S5000x64_S64x64_S5000x64_1_0_0_1_n_n none Y W (constant S5000x64 .f32 0x00000000#32)) (ix2 p q)
      = R (ix2 p q) + ∑ k : Fin 64, Y (ix2 p k) * W (ix2 k q) := by
  rw [ValueIdx.addf_apply, blockProd_apply]

/-- A running result plus one product plus a row broadcast over the block. -/
theorem plusProdPlusRow_apply {φ ψ : FTy} (R : FVec Ideal S5000x64 .f32) (Y : FVec Ideal S5000x64 φ) (W : FVec Ideal S64x64 ψ)
    (B : FVec Ideal S1x64 .f32) (p : Fin 5000) (q : Fin 64) :
    addf (addf R (matmul dot_S5000x64_S64x64_S5000x64_1_0_0_1_n_n none Y W (constant S5000x64 .f32 0x00000000#32)))
         (broadcastTo S5000x64 B broadcasts_S1x64_S5000x64) (ix2 p q)
      = (R (ix2 p q) + ∑ k : Fin 64, Y (ix2 p k) * W (ix2 k q)) + B (ix2 (0 : Fin 1) q) := by
  rw [ValueIdx.addf_apply, plusProd_apply, ValueIdx.broadcastTo_1b_ab_apply]

/-! ## The first kernel -/

/-- The first-order term on a block: `-1 · h + 0 · x`. -/
theorem term1_apply (x h : Vec Ideal S5000x64 .f32) (j : S5000x64.Idx) :
    k0_pay1 (F := Ideal) x h j = Ideal.ofBits .f32 0xBF800000#32 * h j + Ideal.ofBits .f32 0x00000000#32 * x j := by
  unfold k0_pay1
  simp only [shapeCast_self]
  rfl

/-- Orders 0 and 1 accumulated on a block. -/
theorem acc1_apply (x h : Vec Ideal S5000x64 .f32) (w0 w1 : Vec Ideal S64x64 .f32) (p : Fin 5000) (q : Fin 64) :
    k0_pay2 (F := Ideal) x h w0 w1 (ix2 p q)
      = (∑ k : Fin 64, x (ix2 p k) * w0 (ix2 k q)) + ∑ k : Fin 64, k0_pay1 (F := Ideal) x h (ix2 p k) * w1 (ix2 k q) := by
  unfold k0_pay2
  simp only [shapeCast_self]
  exact twoProds_apply _ _ _ _ p q

/-! ## The second kernel -/

/-- A higher-order term on a block: `(-2 · h + 0 · t) - p`. -/
theorem term2_apply (pp t h : Vec Ideal S5000x64 .f32) (j : S5000x64.Idx) :
    k1_pay1 (F := Ideal) pp t h j
      = (Ideal.ofBits .f32 0xC0000000#32 * h j + Ideal.ofBits .f32 0x00000000#32 * t j) - pp j := by
  unfold k1_pay1
  simp only [shapeCast_self]
  rfl

/-- Order 2 accumulated onto the running result on a block. -/
theorem acc2_apply (pp t h : Vec Ideal S5000x64 .f32) (w : Vec Ideal S64x64 .f32) (r : Vec Ideal S5000x64 .f32) (p : Fin 5000) (q : Fin 64) :
    k1_pay2 (F := Ideal) pp t h w r (ix2 p q)
      = r (ix2 p q) + ∑ k : Fin 64, k1_pay1 (F := Ideal) pp t h (ix2 p k) * w (ix2 k q) := by
  unfold k1_pay2
  simp only [shapeCast_self]
  exact plusProd_apply _ _ _ p q

/-! ## The third kernel -/

/-- Order 3 accumulated onto the running result, then the bias row, on a block. -/
theorem acc3_apply (pp t h : Vec Ideal S5000x64 .f32) (w : Vec Ideal S64x64 .f32) (b : Vec Ideal S1x64 .f32) (r : Vec Ideal S5000x64 .f32)
    (p : Fin 5000) (q : Fin 64) :
    k2_pay1 (F := Ideal) pp t h w b r (ix2 p q)
      = (r (ix2 p q) + ∑ k : Fin 64,
          ((Ideal.ofBits .f32 0xC0000000#32 * h (ix2 p k) + Ideal.ofBits .f32 0x00000000#32 * t (ix2 p k)) - pp (ix2 p k)) * w (ix2 k q))
        + b (ix2 (0 : Fin 1) q) := by
  unfold k2_pay1
  simp only [shapeCast_self]
  exact plusProdPlusRow_apply _ _ _ _ p q

end Cert.KernelIdeal.Body

end
-- ==== Proof.BlockIndex.lean ====
/-
  Where a row block sits in a node array. The three kernels all walk the 100000 nodes in 20 blocks of 5000
  rows, every block spanning the 64 channels: entry (p, q) of block `t` is entry (5000·t + p, q) of the array.
-/
import proofs.«128678_j82772609728706_1_alg».proof.Proof.ChebSpec

noncomputable section

namespace Cert.Cheb

open Idealize.ShloMosaic Idealize.ShloMosaic.ValueIdx

/-- One block of rows. -/
abbrev Sblk : Shape := ⟨2, ![5000, 64]⟩

/-- Entry `j` of block `t` as an index of the node array: row `5000·t + j 0`, channel `j 1`. -/
def inBlock (t : Nat) (ht : t < 20) (j : Sblk.Idx) : Sn.Idx := fun a => match a with
  | ⟨0, _⟩ => ⟨t * 5000 + (j 0).val, by have h : (j 0).val < 5000 := (j 0).isLt; show t * 5000 + (j 0).val < 100000; omega⟩
  | ⟨1, _⟩ => ⟨(j 1).val, (j 1).isLt⟩

/-- Channel `k` of the array row holding block entry (p, q) is block entry (p, k). -/
theorem rowAt_inBlock (t : Nat) (ht : t < 20) (p : Fin 5000) (q k : Fin 64) :
    rowAt (inBlock t ht (ix2 p q)) k = inBlock t ht (ix2 p k) := by
  funext a
  match a with
  | ⟨0, _⟩ => rfl
  | ⟨1, _⟩ => rfl

/-- The weight entry paired with it is (k, q). -/
theorem colAt_inBlock (t : Nat) (ht : t < 20) (p : Fin 5000) (q k : Fin 64) :
    colAt (inBlock t ht (ix2 p q)) k = ix2 k q := by
  funext a
  match a with
  | ⟨0, _⟩ => rfl
  | ⟨1, _⟩ => rfl

/-- The bias entry added to block entry (p, q) is column q of the bias row. -/
theorem biasAt_inBlock (t : Nat) (ht : t < 20) (p : Fin 5000) (q : Fin 64) :
    biasAt (inBlock t ht (ix2 p q)) = ix2 (0 : Fin 1) q := by
  funext a
  match a with
  | ⟨0, _⟩ => rfl
  | ⟨1, _⟩ => rfl

end Cert.Cheb

end
-- ==== Proof.Region0.lean ====
/-
  The first kernel's two output arrays as whole-array functions of the arrays the region finds.

  The region walks 20 blocks of 5000 node rows; at block `t` it reads rows 5000·t … 5000·t + 4999 of the features
  and of the neighbourhood sum, and the two weight matrices whole, and writes the same rows of its two outputs.
  Block by block these are the restrictions of ONE function of the whole arrays — the first-order term, and orders
  0 and 1 accumulated — and the blocks tile the node axis, so the arrays end holding those functions.
-/
import proofs.«128678_j82772609728706_1_alg».proof.Proof.Gen.KernelIdeal.Frame
import proofs.«128678_j82772609728706_1_alg».proof.Proof.BodyValues
import proofs.«128678_j82772609728706_1_alg».proof.Proof.BlockIndex
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Cheb

variable (V : (c : Dev nD) → (b : Ref sig .tc) → Buf (Elt Ideal) ((c : Thread nD τ).loc b))

theorem hz : (![0, 0] : Fin 2 → Nat) = fun _ => 0 := funext fun a => by fin_cases a <;> rfl

/-- The block index maps over the 20 grid points: a row window is at block (t, 0), a whole-array window at (0, 0). -/
theorem idx_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each input window's block, read where it sits in its array -/

/-- Window 0's block at point `t` is rows `5000·t … 5000·t + 4999` of its array. -/
theorem blk_w0 (c : Dev nD) (t : Fin cfg0.N) (y : S5000x64.Idx) :
    (iblk0 V c 0 t : Vec Ideal S5000x64 .f32) y = (V c main_arg0 : S100000x64.Idx → EReal) (inBlock t.val (lt_of_lt_of_eq t.isLt N_0) y) := by
  obtain ⟨e0, e1, -, -, -, -, -, -, -, -, -, -⟩ := idx_maps t
  unfold iblk0
  rw [View.read_apply]
  show V c main_arg0 _ = V c main_arg0 _
  refine congrArg (V c main_arg0) ?_
  funext a; apply Fin.ext
  match a with
  | ⟨0, _⟩ => show win0_0.index t (0 : Fin 2) * 5000 + 1 * (y 0).val = t.val * 5000 + (y 0).val; rw [e0]; omega
  | ⟨1, _⟩ => show win0_0.index t (1 : Fin 2) * 64 + 1 * (y 1).val = (y 1).val; rw [e1]; omega

/-- Window 1's block at point `t` is rows `5000·t … 5000·t + 4999` of its array. -/
theorem blk_w1 (c : Dev nD) (t : Fin cfg0.N) (y : S5000x64.Idx) :
    (iblk0 V c 1 t : Vec Ideal S5000x64 .f32) y = (V c main_v21 : S100000x64.Idx → EReal) (inBlock t.val (lt_of_lt_of_eq t.isLt N_0) y) := by
  obtain ⟨-, -, e0, e1, -, -, -, -, -, -, -, -⟩ := idx_maps t
  unfold iblk0
  rw [View.read_apply]
  show V c main_v21 _ = V c main_v21 _
  refine congrArg (V c main_v21) ?_
  funext a; apply Fin.ext
  match a with
  | ⟨0, _⟩ => show win0_1.index t (0 : Fin 2) * 5000 + 1 * (y 0).val = t.val * 5000 + (y 0).val; rw [e0]; omega
  | ⟨1, _⟩ => show win0_1.index t (1 : Fin 2) * 64 + 1 * (y 1).val = (y 1).val; rw [e1]; omega

/-- Window 2's block is its whole array at every point. -/
theorem blk_w2 (c : Dev nD) (t : Fin cfg0.N) (y : S64x64.Idx) :
    (iblk0 V c 2 t : Vec Ideal S64x64 .f32) y = (V c main_v23 : S64x64.Idx → EReal) (y) := by
  obtain ⟨-, -, -, -, e0, e1, -, -, -, -, -, -⟩ := idx_maps t
  unfold iblk0
  rw [View.read_apply]
  show V c main_v23 _ = V c main_v23 _
  refine congrArg (V c main_v23) ?_
  funext a; apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- Window 3's block is its whole array at every point. -/
theorem blk_w3 (c : Dev nD) (t : Fin cfg0.N) (y : S64x64.Idx) :
    (iblk0 V c 3 t : Vec Ideal S64x64 .f32) y = (V c main_v25 : S64x64.Idx → EReal) (y) := by
  obtain ⟨-, -, -, -, -, -, e0, e1, -, -, -, -⟩ := idx_maps t
  unfold iblk0
  rw [View.read_apply]
  show V c main_v25 _ = V c main_v25 _
  refine congrArg (V c main_v25) ?_
  funext a; apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-! ## What each point writes back, and the arrays after the region -/

/-- An index of the array is in point `t`'s block of output window 4 iff each coordinate is in the block's range. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v26_0).slice (win0_4.rect t)).set ↔ _
  rw [View.set_slice_whole, Rect.mem_set_unit]
  exact Iff.rfl

/-- Every node row lies in the block of the point `row / 5000`. -/
theorem covered4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, e0, e1, -, -⟩ := idx_maps ⟨(i 0).val / 5000, hlt⟩
  refine ⟨⟨(i 0).val / 5000, hlt⟩, flush0_4 _, ?_⟩
  rw [mem_blk4]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hlt⟩ (1 : Fin 2) * 64 ≤ (i 1).val ∧ (i 1).val < win0_4.index ⟨(i 0).val / 5000, hlt⟩ (1 : Fin 2) * 64 + 64
    rw [e1]
    omega

/-- Point `t` writes back, into the first output, block `t` of the first-order term of the arrays the region finds. -/
theorem flushed4 (c : Dev nD) (t : Fin cfg0.N) :
    (dat0 (F := Ideal) V c).flushed 4 t
      = ((cfg0.win 4).blk t).view.read (Elt Ideal) (combine1 (V c main_v21) (V c main_arg0)) := by
  show (cfg0.win 4).cut (grid0.coords t) ((dat0 V c).after 4 t) = _
  rw [after0_4]
  unfold out0_4
  rw [View.canon_unit_zero hz]
  simp only [View.ld_unit_zero (S := S5000x64) hz]
  funext j
  obtain ⟨p, q, rfl⟩ : ∃ (p : Fin 5000) (q : Fin 64), j = ix2 p q := ⟨j 0, j 1, eq_ix2 j⟩
  have ht : t.val < 20 := lt_of_lt_of_eq t.isLt N_0
  have he : ((cfg0.win 4).blk t).view.emb (ix2 p q) = inBlock t.val ht (ix2 p q) := by
    obtain ⟨-, -, -, -, -, -, -, -, e0, e1, -, -⟩ := idx_maps t
    funext a; apply Fin.ext
    match a with
    | ⟨0, _⟩ => show win0_4.index t (0 : Fin 2) * 5000 + 1 * ((ix2 p q : S5000x64.Idx) 0).val = t.val * 5000 + ((ix2 p q : S5000x64.Idx) 0).val; rw [e0]; omega
    | ⟨1, _⟩ => show win0_4.index t (1 : Fin 2) * 64 + 1 * ((ix2 p q : S5000x64.Idx) 1).val = ((ix2 p q : S5000x64.Idx) 1).val; rw [e1]; omega
  show k0_pay1 (iblk0 V c 0 t) (iblk0 V c 1 t) (ix2 p q) = (combine1 (V c main_v21) (V c main_arg0)) (((cfg0.win 4).blk t).view.emb (ix2 p q))
  rw [he]
  refine (Body.term1_apply (iblk0 V c 0 t) (iblk0 V c 1 t) (ix2 p q)).trans ?_
  rw [blk_w0 V c t (ix2 p q), blk_w1 V c t (ix2 p q)]
  rfl

/-- After the region the first output array holds the first-order term `-1 · h1 + 0 · x`. -/
theorem array4 (c : Dev nD) : (dat0 (F := Ideal) V c).arrAt 4 cfg0.N = combine1 (V c main_v21) (V c main_arg0) :=
  (dat0 V c).arrAt_eq_of_cover 4 _ (fun t _ => flushed4 V c t) covered4

/-- An index of the array is in point `t`'s block of output window 5 iff each coordinate is in the block's range. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26_1).slice (win0_5.rect t)).set ↔ _
  rw [View.set_slice_whole, Rect.mem_set_unit]
  exact Iff.rfl

/-- Every node row lies in the block of the point `row / 5000`. -/
theorem covered5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, -, -, -, -, -, -, e0, e1⟩ := idx_maps ⟨(i 0).val / 5000, hlt⟩
  refine ⟨⟨(i 0).val / 5000, hlt⟩, flush0_5 _, ?_⟩
  rw [mem_blk5]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]
    omega

/-- Point `t` writes back, into the second output, block `t` of orders 0 and 1 accumulated. -/
theorem flushed5 (c : Dev nD) (t : Fin cfg0.N) :
    (dat0 (F := Ideal) V c).flushed 5 t
      = ((cfg0.win 5).blk t).view.read (Elt Ideal) (acc1 (V c main_arg0) (combine1 (V c main_v21) (V c main_arg0)) (V c main_v23) (V c main_v25)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  have ht : t.val < 20 := lt_of_lt_of_eq t.isLt N_0
  have he : ((cfg0.win 5).blk t).view.emb (ix2 p q) = inBlock t.val ht (ix2 p q) := by
    obtain ⟨-, -, -, -, -, -, -, -, -, -, e0, e1⟩ := idx_maps t
    funext a; apply Fin.ext
    match a with
    | ⟨0, _⟩ => show win0_5.index t (0 : Fin 2) * 5000 + 1 * ((ix2 p q : S5000x64.Idx) 0).val = t.val * 5000 + ((ix2 p q : S5000x64.Idx) 0).val; rw [e0]; omega
    | ⟨1, _⟩ => show win0_5.index t (1 : Fin 2) * 64 + 1 * ((ix2 p q : S5000x64.Idx) 1).val = ((ix2 p q : S5000x64.Idx) 1).val; rw [e1]; omega
  show k0_pay2 (iblk0 V c 0 t) (iblk0 V c 1 t) (iblk0 V c 2 t) (iblk0 V c 3 t) (ix2 p q) = (acc1 (V c main_arg0) (combine1 (V c main_v21) (V c main_arg0)) (V c main_v23) (V c main_v25)) (((cfg0.win 5).blk t).view.emb (ix2 p q))
  rw [he]
  refine (Body.acc1_apply (iblk0 V c 0 t) (iblk0 V c 1 t) (iblk0 V c 2 t) (iblk0 V c 3 t) p q).trans ?_
  show _ = prod (V c main_arg0) (V c main_v23) (inBlock t.val ht (ix2 p q))
            + prod (combine1 (V c main_v21) (V c main_arg0)) (V c main_v25) (inBlock t.val ht (ix2 p q))
  refine congrArg₂ (· + ·) (Finset.sum_congr rfl fun k _ => ?_) (Finset.sum_congr rfl fun k _ => ?_)
  · rw [rowAt_inBlock, colAt_inBlock, blk_w0 V c t (ix2 p k), blk_w2 V c t (ix2 k q)]
  · rw [rowAt_inBlock, colAt_inBlock]
    refine congrArg₂ (· * ·) ((Body.term1_apply (iblk0 V c 0 t) (iblk0 V c 1 t) (ix2 p k)).trans ?_) (blk_w3 V c t (ix2 k q))
    rw [blk_w0 V c t (ix2 p k), blk_w1 V c t (ix2 p k)]
    rfl

/-- After the region the second output array holds `x·W0 + T1·W1`. -/
theorem array5 (c : Dev nD) : (dat0 (F := Ideal) V c).arrAt 5 cfg0.N = acc1 (V c main_arg0) (combine1 (V c main_v21) (V c main_arg0)) (V c main_v23) (V c main_v25) :=
  (dat0 V c).arrAt_eq_of_cover 5 _ (fun t _ => flushed5 V c t) covered5

end Cert.KernelIdeal.Region0

end
-- ==== Proof.Region1.lean ====
/-
  The second kernel's two output arrays as whole-array functions of the arrays the region finds.

  Again 20 blocks of 5000 node rows: at block `t` the region reads those rows of the features, of the first-order term,
  of the second neighbourhood sum and of the running result, and the third weight matrix whole, and writes the same rows
  of the second-order term and of the running result with one more product accumulated. The blocks are restrictions of
  one function of the whole arrays and tile the node axis.
-/
import proofs.«128678_j82772609728706_1_alg».proof.Proof.Gen.KernelIdeal.Frame
import proofs.«128678_j82772609728706_1_alg».proof.Proof.BodyValues
import proofs.«128678_j82772609728706_1_alg».proof.Proof.BlockIndex
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Cheb

variable (V : (c : Dev nD) → (b : Ref sig .tc) → Buf (Elt Ideal) ((c : Thread nD τ).loc b))

theorem hz : (![0, 0] : Fin 2 → Nat) = fun _ => 0 := funext fun a => by fin_cases a <;> rfl

/-- One more order accumulated, at an index. -/
theorem accNext_at (r t : FVec Ideal Sn .f32) (w : FVec Ideal Sw .f32) (i : Sn.Idx) : accNext r t w i = r i + prod t w i := rfl
/-- A product at an index is the sum over the channels. -/
theorem prod_at (X : FVec Ideal Sn .f32) (W : FVec Ideal Sw .f32) (i : Sn.Idx) : prod X W i = ∑ k : Fin 64, X (rowAt i k) * W (colAt i k) := rfl

/-- The block index maps over the 20 grid points: a row window is at block (t, 0), a whole-array window at (0, 0). -/
theorem idx_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## Each input window's block, read where it sits in its array -/

/-- Window 0's block at point `t` is rows `5000·t … 5000·t + 4999` of its array. -/
theorem blk_w0 (c : Dev nD) (t : Fin cfg1.N) (y : S5000x64.Idx) :
    (iblk1 V c 0 t : Vec Ideal S5000x64 .f32) y = (V c main_arg0 : S100000x64.Idx → EReal) (inBlock t.val (lt_of_lt_of_eq t.isLt N_1) y) := by
  obtain ⟨e0, e1, -, -, -, -, -, -, -, -, -, -, -, -⟩ := idx_maps t
  unfold iblk1
  rw [View.read_apply]
  show V c main_arg0 _ = V c main_arg0 _
  refine congrArg (V c main_arg0) ?_
  funext a; apply Fin.ext
  match a with
  | ⟨0, _⟩ => show win1_0.index t (0 : Fin 2) * 5000 + 1 * (y 0).val = t.val * 5000 + (y 0).val; rw [e0]; omega
  | ⟨1, _⟩ => show win1_0.index t (1 : Fin 2) * 64 + 1 * (y 1).val = (y 1).val; rw [e1]; omega

/-- Window 1's block at point `t` is rows `5000·t … 5000·t + 4999` of its array. -/
theorem blk_w1 (c : Dev nD) (t : Fin cfg1.N) (y : S5000x64.Idx) :
    (iblk1 V c 1 t : Vec Ideal S5000x64 .f32) y = (V c main_v26_0 : S100000x64.Idx → EReal) (inBlock t.val (lt_of_lt_of_eq t.isLt N_1) y) := by
  obtain ⟨-, -, e0, e1, -, -, -, -, -, -, -, -, -, -⟩ := idx_maps t
  unfold iblk1
  rw [View.read_apply]
  show V c main_v26_0 _ = V c main_v26_0 _
  refine congrArg (V c main_v26_0) ?_
  funext a; apply Fin.ext
  match a with
  | ⟨0, _⟩ => show win1_1.index t (0 : Fin 2) * 5000 + 1 * (y 0).val = t.val * 5000 + (y 0).val; rw [e0]; omega
  | ⟨1, _⟩ => show win1_1.index t (1 : Fin 2) * 64 + 1 * (y 1).val = (y 1).val; rw [e1]; omega

/-- Window 2's block at point `t` is rows `5000·t … 5000·t + 4999` of its array. -/
theorem blk_w2 (c : Dev nD) (t : Fin cfg1.N) (y : S5000x64.Idx) :
    (iblk1 V c 2 t : Vec Ideal S5000x64 .f32) y = (V c main_v40 : S100000x64.Idx → EReal) (inBlock t.val (lt_of_lt_of_eq t.isLt N_1) y) := by
  obtain ⟨-, -, -, -, e0, e1, -, -, -, -, -, -, -, -⟩ := idx_maps t
  unfold iblk1
  rw [View.read_apply]
  show V c main_v40 _ = V c main_v40 _
  refine congrArg (V c main_v40) ?_
  funext a; apply Fin.ext
  match a with
  | ⟨0, _⟩ => show win1_2.index t (0 : Fin 2) * 5000 + 1 * (y 0).val = t.val * 5000 + (y 0).val; rw [e0]; omega
  | ⟨1, _⟩ => show win1_2.index t (1 : Fin 2) * 64 + 1 * (y 1).val = (y 1).val; rw [e1]; omega

/-- Window 3's block at point `t` is rows `5000·t … 5000·t + 4999` of its array. -/
theorem blk_w3 (c : Dev nD) (t : Fin cfg1.N) (y : S5000x64.Idx) :
    (iblk1 V c 3 t : Vec Ideal S5000x64 .f32) y = (V c main_v26_1 : S100000x64.Idx → EReal) (inBlock t.val (lt_of_lt_of_eq t.isLt N_1) y) := by
  obtain ⟨-, -, -, -, -, -, e0, e1, -, -, -, -, -, -⟩ := idx_maps t
  unfold iblk1
  rw [View.read_apply]
  show V c main_v26_1 _ = V c main_v26_1 _
  refine congrArg (V c main_v26_1) ?_
  funext a; apply Fin.ext
  match a with
  | ⟨0, _⟩ => show win1_3.index t (0 : Fin 2) * 5000 + 1 * (y 0).val = t.val * 5000 + (y 0).val; rw [e0]; omega
  | ⟨1, _⟩ => show win1_3.index t (1 : Fin 2) * 64 + 1 * (y 1).val = (y 1).val; rw [e1]; omega

/-- Window 4's block is its whole array at every point. -/
theorem blk_w4 (c : Dev nD) (t : Fin cfg1.N) (y : S64x64.Idx) :
    (iblk1 V c 4 t : Vec Ideal S64x64 .f32) y = (V c main_v42 : S64x64.Idx → EReal) (y) := by
  obtain ⟨-, -, -, -, -, -, -, -, e0, e1, -, -, -, -⟩ := idx_maps t
  unfold iblk1
  rw [View.read_apply]
  show V c main_v42 _ = V c main_v42 _
  refine congrArg (V c main_v42) ?_
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-! ## What each point writes back, and the arrays after the region -/

/-- An index of the array is in point `t`'s block of output window 5 iff each coordinate is in the block's range. -/
theorem mem_blk5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43_0).slice (win1_5.rect t)).set ↔ _
  rw [View.set_slice_whole, Rect.mem_set_unit]
  exact Iff.rfl

/-- Every node row lies in the block of the point `row / 5000`. -/
theorem covered5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, -, -, e0, e1, -, -⟩ := idx_maps ⟨(i 0).val / 5000, hlt⟩
  refine ⟨⟨(i 0).val / 5000, hlt⟩, flush1_5 _, ?_⟩
  rw [mem_blk5]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]
    omega

/-- Point `t` writes back, into the first output, block `t` of the second-order term of the arrays the region finds. -/
theorem flushed5 (c : Dev nD) (t : Fin cfg1.N) :
    (dat1 (F := Ideal) V c).flushed 5 t
      = ((cfg1.win 5).blk t).view.read (Elt Ideal) (combine2 (V c main_v40) (V c main_v26_0) (V c main_arg0)) := by
  show (cfg1.win 5).cut (grid1.coords t) ((dat1 V c).after 5 t) = _
  rw [after1_5]
  unfold out1_5
  rw [View.canon_unit_zero hz]
  simp only [View.ld_unit_zero (S := S5000x64) hz]
  funext j
  obtain ⟨p, q, rfl⟩ : ∃ (p : Fin 5000) (q : Fin 64), j = ix2 p q := ⟨j 0, j 1, eq_ix2 j⟩
  have ht : t.val < 20 := lt_of_lt_of_eq t.isLt N_1
  have he : ((cfg1.win 5).blk t).view.emb (ix2 p q) = inBlock t.val ht (ix2 p q) := by
    obtain ⟨-, -, -, -, -, -, -, -, -, -, e0, e1, -, -⟩ := idx_maps t
    funext a; apply Fin.ext
    match a with
    | ⟨0, _⟩ => show win1_5.index t (0 : Fin 2) * 5000 + 1 * ((ix2 p q : S5000x64.Idx) 0).val = t.val * 5000 + ((ix2 p q : S5000x64.Idx) 0).val; rw [e0]; omega
    | ⟨1, _⟩ => show win1_5.index t (1 : Fin 2) * 64 + 1 * ((ix2 p q : S5000x64.Idx) 1).val = ((ix2 p q : S5000x64.Idx) 1).val; rw [e1]; omega
  show k1_pay1 (iblk1 V c 0 t) (iblk1 V c 1 t) (iblk1 V c 2 t) (ix2 p q) = (combine2 (V c main_v40) (V c main_v26_0) (V c main_arg0)) (((cfg1.win 5).blk t).view.emb (ix2 p q))
  rw [he]
  refine (Body.term2_apply (iblk1 V c 0 t) (iblk1 V c 1 t) (iblk1 V c 2 t) (ix2 p q)).trans ?_
  rw [blk_w0 V c t (ix2 p q), blk_w1 V c t (ix2 p q), blk_w2 V c t (ix2 p q)]
  rfl

/-- After the region the first output array holds the second-order term `(-2 · h2 + 0 · T1) - x`. -/
theorem array5 (c : Dev nD) : (dat1 (F := Ideal) V c).arrAt 5 cfg1.N = combine2 (V c main_v40) (V c main_v26_0) (V c main_arg0) :=
  (dat1 V c).arrAt_eq_of_cover 5 _ (fun t _ => flushed5 V c t) covered5

/-- An index of the array is in point `t`'s block of output window 6 iff each coordinate is in the block's range. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43_1).slice (win1_6.rect t)).set ↔ _
  rw [View.set_slice_whole, Rect.mem_set_unit]
  exact Iff.rfl

/-- Every node row lies in the block of the point `row / 5000`. -/
theorem covered6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, -, -, -, -, e0, e1⟩ := idx_maps ⟨(i 0).val / 5000, hlt⟩
  refine ⟨⟨(i 0).val / 5000, hlt⟩, flush1_6 _, ?_⟩
  rw [mem_blk6]
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, hlt⟩ (1 : Fin 2) * 64 ≤ (i 1).val ∧ (i 1).val < win1_6.index ⟨(i 0).val / 5000, hlt⟩ (1 : Fin 2) * 64 + 64
    rw [e1]
    omega

/-- Point `t` writes back, into the second output, block `t` of the running result with order 2 accumulated. -/
theorem flushed6 (c : Dev nD) (t : Fin cfg1.N) :
    (dat1 (F := Ideal) V c).flushed 6 t
      = ((cfg1.win 6).blk t).view.read (Elt Ideal) (accNext (V c main_v26_1) (combine2 (V c main_v40) (V c main_v26_0) (V c main_arg0)) (V c main_v42)) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  have ht : t.val < 20 := lt_of_lt_of_eq t.isLt N_1
  have he : ((cfg1.win 6).blk t).view.emb (ix2 p q) = inBlock t.val ht (ix2 p q) := by
    obtain ⟨-, -, -, -, -, -, -, -, -, -, -, -, e0, e1⟩ := idx_maps t
    funext a; apply Fin.ext
    match a with
    | ⟨0, _⟩ => show win1_6.index t (0 : Fin 2) * 5000 + 1 * ((ix2 p q : S5000x64.Idx) 0).val = t.val * 5000 + ((ix2 p q : S5000x64.Idx) 0).val; rw [e0]; omega
    | ⟨1, _⟩ => show win1_6.index t (1 : Fin 2) * 64 + 1 * ((ix2 p q : S5000x64.Idx) 1).val = ((ix2 p q : S5000x64.Idx) 1).val; rw [e1]; omega
  show k1_pay2 (iblk1 V c 0 t) (iblk1 V c 1 t) (iblk1 V c 2 t) (iblk1 V c 4 t) (iblk1 V c 3 t) (ix2 p q) = (accNext (V c main_v26_1) (combine2 (V c main_v40) (V c main_v26_0) (V c main_arg0)) (V c main_v42)) (((cfg1.win 6).blk t).view.emb (ix2 p q))
  rw [he]
  refine (Body.acc2_apply (iblk1 V c 0 t) (iblk1 V c 1 t) (iblk1 V c 2 t) (iblk1 V c 4 t) (iblk1 V c 3 t) p q).trans ?_
  rw [accNext_at, prod_at]
  refine congrArg₂ (· + ·) (blk_w3 V c t (ix2 p q)) (Finset.sum_congr rfl fun k _ => ?_)
  rw [rowAt_inBlock, colAt_inBlock]
  refine congrArg₂ (· * ·) ((Body.term2_apply (iblk1 V c 0 t) (iblk1 V c 1 t) (iblk1 V c 2 t) (ix2 p k)).trans ?_) (blk_w4 V c t (ix2 k q))
  rw [blk_w0 V c t (ix2 p k), blk_w1 V c t (ix2 p k), blk_w2 V c t (ix2 p k)]
  rfl

/-- After the region the second output array holds `r1 + T2·W2`. -/
theorem array6 (c : Dev nD) : (dat1 (F := Ideal) V c).arrAt 6 cfg1.N = accNext (V c main_v26_1) (combine2 (V c main_v40) (V c main_v26_0) (V c main_arg0)) (V c main_v42) :=
  (dat1 V c).arrAt_eq_of_cover 6 _ (fun t _ => flushed6 V c t) covered6

end Cert.KernelIdeal.Region1

end
-- ==== Proof.Region2.lean ====
/-
  The third kernel's output array as a whole-array function of the arrays the region finds.

  20 blocks of 5000 node rows: at block `t` the region reads those rows of the first- and second-order terms, of the third
  neighbourhood sum and of the running result, the last weight matrix and the bias row whole, forms the third-order term
  on the block and writes the same rows of the running result with the last product and the bias added. The blocks are
  restrictions of one function of the whole arrays and tile the node axis.
-/
import proofs.«128678_j82772609728706_1_alg».proof.Proof.Gen.KernelIdeal.Frame
import proofs.«128678_j82772609728706_1_alg».proof.Proof.BodyValues
import proofs.«128678_j82772609728706_1_alg».proof.Proof.BlockIndex
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Cheb

variable (V : (c : Dev nD) → (b : Ref sig .tc) → Buf (Elt Ideal) ((c : Thread nD τ).loc b))

theorem hz : (![0, 0] : Fin 2 → Nat) = fun _ => 0 := funext fun a => by fin_cases a <;> rfl

/-- The last order accumulated and the bias added, at an index. -/
theorem accLast_at (r t : FVec Ideal Sn .f32) (w : FVec Ideal Sw .f32) (b : FVec Ideal Sb .f32) (i : Sn.Idx) :
    accLast r t w b i = (r i + prod t w i) + b (biasAt i) := rfl
/-- A product at an index is the sum over the channels. -/
theorem prod_at (X : FVec Ideal Sn .f32) (W : FVec Ideal Sw .f32) (i : Sn.Idx) : prod X W i = ∑ k : Fin 64, X (rowAt i k) * W (colAt i k) := rfl

/-- The block index maps over the 20 grid points: a row window is at block (t, 0), a whole-array window at (0, 0). -/
theorem idx_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## Each input window's block, read where it sits in its array -/

/-- Window 0's block at point `t` is rows `5000·t … 5000·t + 4999` of its array. -/
theorem blk_w0 (c : Dev nD) (t : Fin cfg2.N) (y : S5000x64.Idx) :
    (iblk2 V c 0 t : Vec Ideal S5000x64 .f32) y = (V c main_v26_0 : S100000x64.Idx → EReal) (inBlock t.val (lt_of_lt_of_eq t.isLt N_2) y) := by
  obtain ⟨e0, e1, -, -, -, -, -, -, -, -, -, -, -, -⟩ := idx_maps t
  unfold iblk2
  rw [View.read_apply]
  show V c main_v26_0 _ = V c main_v26_0 _
  refine congrArg (V c main_v26_0) ?_
  funext a; apply Fin.ext
  match a with
  | ⟨0, _⟩ => show win2_0.index t (0 : Fin 2) * 5000 + 1 * (y 0).val = t.val * 5000 + (y 0).val; rw [e0]; omega
  | ⟨1, _⟩ => show win2_0.index t (1 : Fin 2) * 64 + 1 * (y 1).val = (y 1).val; rw [e1]; omega

/-- Window 1's block at point `t` is rows `5000·t … 5000·t + 4999` of its array. -/
theorem blk_w1 (c : Dev nD) (t : Fin cfg2.N) (y : S5000x64.Idx) :
    (iblk2 V c 1 t : Vec Ideal S5000x64 .f32) y = (V c main_v43_0 : S100000x64.Idx → EReal) (inBlock t.val (lt_of_lt_of_eq t.isLt N_2) y) := by
  obtain ⟨-, -, e0, e1, -, -, -, -, -, -, -, -, -, -⟩ := idx_maps t
  unfold iblk2
  rw [View.read_apply]
  show V c main_v43_0 _ = V c main_v43_0 _
  refine congrArg (V c main_v43_0) ?_
  funext a; apply Fin.ext
  match a with
  | ⟨0, _⟩ => show win2_1.index t (0 : Fin 2) * 5000 + 1 * (y 0).val = t.val * 5000 + (y 0).val; rw [e0]; omega
  | ⟨1, _⟩ => show win2_1.index t (1 : Fin 2) * 64 + 1 * (y 1).val = (y 1).val; rw [e1]; omega

/-- Window 2's block at point `t` is rows `5000·t … 5000·t + 4999` of its array. -/
theorem blk_w2 (c : Dev nD) (t : Fin cfg2.N) (y : S5000x64.Idx) :
    (iblk2 V c 2 t : Vec Ideal S5000x64 .f32) y = (V c main_v57 : S100000x64.Idx → EReal) (inBlock t.val (lt_of_lt_of_eq t.isLt N_2) y) := by
  obtain ⟨-, -, -, -, e0, e1, -, -, -, -, -, -, -, -⟩ := idx_maps t
  unfold iblk2
  rw [View.read_apply]
  show V c main_v57 _ = V c main_v57 _
  refine congrArg (V c main_v57) ?_
  funext a; apply Fin.ext
  match a with
  | ⟨0, _⟩ => show win2_2.index t (0 : Fin 2) * 5000 + 1 * (y 0).val = t.val * 5000 + (y 0).val; rw [e0]; omega
  | ⟨1, _⟩ => show win2_2.index t (1 : Fin 2) * 64 + 1 * (y 1).val = (y 1).val; rw [e1]; omega

/-- Window 3's block at point `t` is rows `5000·t … 5000·t + 4999` of its array. -/
theorem blk_w3 (c : Dev nD) (t : Fin cfg2.N) (y : S5000x64.Idx) :
    (iblk2 V c 3 t : Vec Ideal S5000x64 .f32) y = (V c main_v43_1 : S100000x64.Idx → EReal) (inBlock t.val (lt_of_lt_of_eq t.isLt N_2) y) := by
  obtain ⟨-, -, -, -, -, -, e0, e1, -, -, -, -, -, -⟩ := idx_maps t
  unfold iblk2
  rw [View.read_apply]
  show V c main_v43_1 _ = V c main_v43_1 _
  refine congrArg (V c main_v43_1) ?_
  funext a; apply Fin.ext
  match a with
  | ⟨0, _⟩ => show win2_3.index t (0 : Fin 2) * 5000 + 1 * (y 0).val = t.val * 5000 + (y 0).val; rw [e0]; omega
  | ⟨1, _⟩ => show win2_3.index t (1 : Fin 2) * 64 + 1 * (y 1).val = (y 1).val; rw [e1]; omega

/-- Window 4's block is its whole array at every point. -/
theorem blk_w4 (c : Dev nD) (t : Fin cfg2.N) (y : S64x64.Idx) :
    (iblk2 V c 4 t : Vec Ideal S64x64 .f32) y = (V c main_v60 : S64x64.Idx → EReal) (y) := by
  obtain ⟨-, -, -, -, -, -, -, -, e0, e1, -, -, -, -⟩ := idx_maps t
  unfold iblk2
  rw [View.read_apply]
  show V c main_v60 _ = V c main_v60 _
  refine congrArg (V c main_v60) ?_
  funext a; apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- Window 5's block is its whole array at every point. -/
theorem blk_w5 (c : Dev nD) (t : Fin cfg2.N) (y : S1x64.Idx) :
    (iblk2 V c 5 t : Vec Ideal S1x64 .f32) y = (V c main_v58 : S1x64.Idx → EReal) (y) := by
  obtain ⟨-, -, -, -, -, -, -, -, -, -, e0, e1, -, -⟩ := idx_maps t
  unfold iblk2
  rw [View.read_apply]
  show V c main_v58 _ = V c main_v58 _
  refine congrArg (V c main_v58) ?_
  funext a; apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-! ## What each point writes back, and the arrays after the region -/

/-- An index of the array is in point `t`'s block of output window 6 iff each coordinate is in the block's range. -/
theorem mem_blk6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v61).slice (win2_6.rect t)).set ↔ _
  rw [View.set_slice_whole, Rect.mem_set_unit]
  exact Iff.rfl

/-- Every node row lies in the block of the point `row / 5000`. -/
theorem covered6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨-, -, -, -, -, -, -, -, -, -, -, -, e0, e1⟩ := idx_maps ⟨(i 0).val / 5000, hlt⟩
  refine ⟨⟨(i 0).val / 5000, hlt⟩, flush2_6 _, ?_⟩
  rw [mem_blk6]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e1]
    omega

/-- Point `t` writes back block `t` of the running result with order 3 accumulated and the bias row added. -/
theorem flushed6 (c : Dev nD) (t : Fin cfg2.N) :
    (dat2 (F := Ideal) V c).flushed 6 t
      = ((cfg2.win 6).blk t).view.read (Elt Ideal) (accLast (V c main_v43_1) (combine2 (V c main_v57) (V c main_v43_0) (V c main_v26_0)) (V c main_v60) (V c main_v58)) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have ht : t.val < 20 := lt_of_lt_of_eq t.isLt N_2
  have he : ((cfg2.win 6).blk t).view.emb (ix2 p q) = inBlock t.val ht (ix2 p q) := by
    obtain ⟨-, -, -, -, -, -, -, -, -, -, -, -, e0, e1⟩ := idx_maps t
    funext a; apply Fin.ext
    match a with
    | ⟨0, _⟩ => show win2_6.index t (0 : Fin 2) * 5000 + 1 * ((ix2 p q : S5000x64.Idx) 0).val = t.val * 5000 + ((ix2 p q : S5000x64.Idx) 0).val; rw [e0]; omega
    | ⟨1, _⟩ => show win2_6.index t (1 : Fin 2) * 64 + 1 * ((ix2 p q : S5000x64.Idx) 1).val = ((ix2 p q : S5000x64.Idx) 1).val; rw [e1]; omega
  show k2_pay1 (iblk2 V c 0 t) (iblk2 V c 1 t) (iblk2 V c 2 t) (iblk2 V c 4 t) (iblk2 V c 5 t) (iblk2 V c 3 t) (ix2 p q) = (accLast (V c main_v43_1) (combine2 (V c main_v57) (V c main_v43_0) (V c main_v26_0)) (V c main_v60) (V c main_v58)) (((cfg2.win 6).blk t).view.emb (ix2 p q))
  rw [he]
  refine (Body.acc3_apply (iblk2 V c 0 t) (iblk2 V c 1 t) (iblk2 V c 2 t) (iblk2 V c 4 t) (iblk2 V c 5 t) (iblk2 V c 3 t) p q).trans ?_
  rw [accLast_at, prod_at]
  refine congrArg₂ (· + ·) (congrArg₂ (· + ·) (blk_w3 V c t (ix2 p q)) (Finset.sum_congr rfl fun k _ => ?_)) ?_
  · rw [rowAt_inBlock, colAt_inBlock, blk_w0 V c t (ix2 p k), blk_w1 V c t (ix2 p k), blk_w2 V c t (ix2 p k), blk_w4 V c t (ix2 k q)]
    rfl
  · rw [biasAt_inBlock]
    exact blk_w5 V c t (ix2 (0 : Fin 1) q)

/-- After the region the output array holds `(r2 + T3·W3) + b` with `T3 = (-2 · h3 + 0 · T2) - T1`. -/
theorem array6 (c : Dev nD) : (dat2 (F := Ideal) V c).arrAt 6 cfg2.N = accLast (V c main_v43_1) (combine2 (V c main_v57) (V c main_v43_0) (V c main_v26_0)) (V c main_v60) (V c main_v58) :=
  (dat2 V c).arrAt_eq_of_cover 6 _ (fun t _ => flushed6 V c t) covered6

end Cert.KernelIdeal.Region2

end
-- ==== Proof.HostGlue.lean ====
/-
  The arrays the three kernel regions find and leave, as functions of the five arguments.

  Between the regions @main runs the same host operations as the reference: the degree normalisation once, then before
  each region the normalised neighbourhood sum of the term the previous region produced (of the features, before the
  first), and a slice of the weights. Reading each boundary's buffer contents back through those operations and through
  the regions' whole-array results gives, in order: the first-order term and the first two products accumulated; the
  second-order term and the third product accumulated; and the result, the last product and the bias added — the
  convolution `Cert.Cheb.result` of the five arguments.
-/
import proofs.«128678_j82772609728706_1_alg».proof.Proof.Gen.KernelIdeal.Frame
import proofs.«128678_j82772609728706_1_alg».proof.Proof.Region0
import proofs.«128678_j82772609728706_1_alg».proof.Proof.Region1
import proofs.«128678_j82772609728706_1_alg».proof.Proof.Region2
import proofs.«128678_j82772609728706_1_alg».proof.Proof.Reference
import Idealize.ShloMosaic.Lib.StableHlo.Run
import Idealize.ShloMosaic.Lib.ValueLayout

set_option maxRecDepth 16384

noncomputable section

namespace Cert.KernelIdeal.Glue

open Cert.KernelIdeal Cert.KernelIdeal.Gen Cert.Cheb
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The node features. -/
abbrev A0 (c : Dev nD) : FVec Ideal S100000x64 .f32 := m ((c : Thread nD τ).loc main_arg0)
/-- The edges' source nodes. -/
abbrev A1 (c : Dev nD) : (⟨S1600000, .i32⟩ : BufTy).Contents (Elt Ideal) := m ((c : Thread nD τ).loc main_arg1)
/-- The edges' destination nodes. -/
abbrev A2 (c : Dev nD) : (⟨S1600000, .i32⟩ : BufTy).Contents (Elt Ideal) := m ((c : Thread nD τ).loc main_arg2)
/-- The four weight matrices. -/
abbrev A3 (c : Dev nD) : (⟨S4x64x64, .f32⟩ : BufTy).Contents (Elt Ideal) := m ((c : Thread nD τ).loc main_arg3)
/-- The bias. -/
abbrev A4 (c : Dev nD) : (⟨S64, .f32⟩ : BufTy).Contents (Elt Ideal) := m ((c : Thread nD τ).loc main_arg4)

/-- The first-order term. -/
abbrev T1 (c : Dev nD) : FVec Ideal Sn .f32 := combine1 (nbr (A0 m c) (A1 m c) (A2 m c)) (A0 m c)
/-- The second-order term. -/
abbrev T2 (c : Dev nD) : FVec Ideal Sn .f32 := combine2 (nbr (T1 m c) (A1 m c) (A2 m c)) (T1 m c) (A0 m c)
/-- Orders 0 and 1 accumulated. -/
abbrev R1 (c : Dev nD) : FVec Ideal Sn .f32 :=
  acc1 (A0 m c) (T1 m c) (Cert.ReferenceIdeal.Read.val_main_v9 (F := Ideal) (A3 m c)) (Cert.ReferenceIdeal.Read.val_main_v33 (F := Ideal) (A3 m c))
/-- Orders 0 to 2 accumulated. -/
abbrev R2 (c : Dev nD) : FVec Ideal Sn .f32 := accNext (R1 m c) (T2 m c) (Cert.ReferenceIdeal.Read.val_main_v59 (F := Ideal) (A3 m c))

/-! ## At the first region's entry -/

/-- The three operations of the clamp `max(1, ·)` (a called function's body, spelt through typed references) are the plain
    operations on the same buffers. -/
theorem clip_ops {F : FTy → Type} [FloatOps F] : (hostOps0_1 : List (HloOp τ sig (Elt F))) =
    [ StableHlo.unary main_cst_1 main_call0_v0 (id : (⟨S_, .f32⟩ : BufTy).Contents (Elt F) → (⟨S_, .f32⟩ : BufTy).Contents (Elt F)),
      StableHlo.unary main_call0_v0 main_call0_v1 (broadcastInDim S100000 ![] bcast_S_S100000 : (⟨S_, .f32⟩ : BufTy).Contents (Elt F) → (⟨S100000, .f32⟩ : BufTy).Contents (Elt F)),
      StableHlo.binary main_call0_v1 main_v3 main_v4 (maximumf : (⟨S100000, .f32⟩ : BufTy).Contents (Elt F) → (⟨S100000, .f32⟩ : BufTy).Contents (Elt F) → (⟨S100000, .f32⟩ : BufTy).Contents (Elt F)) ] := rfl

theorem w3_arg0 (c : Dev nD) : (W3 m ρ c (Proc.devRef .tc main_arg0) : S100000x64.Idx → EReal) = A0 m c := by
  show StableHlo.after hostOps0_2 (StableHlo.after hostOps0_1 (StableHlo.after hostOps0 (W0 m ρ c))) (Proc.devRef .tc main_arg0) = _
  rw [clip_ops]
  after_results_simp <;> rfl

theorem w3_arg1 (c : Dev nD) : (W3 m ρ c (Proc.devRef .tc main_arg1) : S1600000.Idx → BitVec 32) = A1 m c := by
  show StableHlo.after hostOps0_2 (StableHlo.after hostOps0_1 (StableHlo.after hostOps0 (W0 m ρ c))) (Proc.devRef .tc main_arg1) = _
  rw [clip_ops]
  after_results_simp <;> rfl

theorem w3_arg2 (c : Dev nD) : (W3 m ρ c (Proc.devRef .tc main_arg2) : S1600000.Idx → BitVec 32) = A2 m c := by
  show StableHlo.after hostOps0_2 (StableHlo.after hostOps0_1 (StableHlo.after hostOps0 (W0 m ρ c))) (Proc.devRef .tc main_arg2) = _
  rw [clip_ops]
  after_results_simp <;> rfl

theorem w3_arg3 (c : Dev nD) : (W3 m ρ c (Proc.devRef .tc main_arg3) : S4x64x64.Idx → EReal) = A3 m c := by
  show StableHlo.after hostOps0_2 (StableHlo.after hostOps0_1 (StableHlo.after hostOps0 (W0 m ρ c))) (Proc.devRef .tc main_arg3) = _
  rw [clip_ops]
  after_results_simp <;> rfl

theorem w3_arg4 (c : Dev nD) : (W3 m ρ c (Proc.devRef .tc main_arg4) : S64.Idx → EReal) = A4 m c := by
  show StableHlo.after hostOps0_2 (StableHlo.after hostOps0_1 (StableHlo.after hostOps0 (W0 m ρ c))) (Proc.devRef .tc main_arg4) = _
  rw [clip_ops]
  after_results_simp <;> rfl

theorem w3_v7 (c : Dev nD) : (W3 m ρ c (Proc.devRef .tc main_v7) : S100000x1.Idx → EReal) = Cert.ReferenceIdeal.Read.val_main_v7 (F := Ideal) (A2 m c) := by
  show StableHlo.after hostOps0_2 (StableHlo.after hostOps0_1 (StableHlo.after hostOps0 (W0 m ρ c))) (Proc.devRef .tc main_v7) = _
  rw [clip_ops]
  after_results_simp <;> rfl

theorem w3_v21 (c : Dev nD) : (W3 m ρ c (Proc.devRef .tc main_v21) : S100000x64.Idx → EReal) = nbr (A0 m c) (A1 m c) (A2 m c) := by
  show StableHlo.after hostOps0_2 (StableHlo.after hostOps0_1 (StableHlo.after hostOps0 (W0 m ρ c))) (Proc.devRef .tc main_v21) = _
  rw [clip_ops]
  after_results_simp <;> rfl

theorem w3_v23 (c : Dev nD) : (W3 m ρ c (Proc.devRef .tc main_v23) : S64x64.Idx → EReal) = Cert.ReferenceIdeal.Read.val_main_v9 (F := Ideal) (A3 m c) := by
  show StableHlo.after hostOps0_2 (StableHlo.after hostOps0_1 (StableHlo.after hostOps0 (W0 m ρ c))) (Proc.devRef .tc main_v23) = _
  rw [clip_ops]
  after_results_simp <;> rfl

theorem w3_v25 (c : Dev nD) : (W3 m ρ c (Proc.devRef .tc main_v25) : S64x64.Idx → EReal) = Cert.ReferenceIdeal.Read.val_main_v33 (F := Ideal) (A3 m c) := by
  show StableHlo.after hostOps0_2 (StableHlo.after hostOps0_1 (StableHlo.after hostOps0 (W0 m ρ c))) (Proc.devRef .tc main_v25) = _
  rw [clip_ops]
  after_results_simp <;> rfl

/-! ## At the first region's exit -/

theorem w4_arg0 (c : Dev nD) : (W4 m ρ c (Proc.devRef .tc main_arg0) : S100000x64.Idx → EReal) = A0 m c :=
  (W4_arr m ρ c 0).trans (((dat0 (V3 m ρ) c).arrAt_in 0 rfl _).trans ((A_eq0 (V3 m ρ) c 0).trans (w3_arg0 m ρ c)))
theorem w4_arg1 (c : Dev nD) : (W4 m ρ c (Proc.devRef .tc main_arg1) : S1600000.Idx → BitVec 32) = A1 m c :=
  (W4_of_ne m ρ c main_arg1 (by decide)).trans (w3_arg1 m ρ c)
theorem w4_arg2 (c : Dev nD) : (W4 m ρ c (Proc.devRef .tc main_arg2) : S1600000.Idx → BitVec 32) = A2 m c :=
  (W4_of_ne m ρ c main_arg2 (by decide)).trans (w3_arg2 m ρ c)
theorem w4_arg3 (c : Dev nD) : (W4 m ρ c (Proc.devRef .tc main_arg3) : S4x64x64.Idx → EReal) = A3 m c :=
  (W4_of_ne m ρ c main_arg3 (by decide)).trans (w3_arg3 m ρ c)
theorem w4_arg4 (c : Dev nD) : (W4 m ρ c (Proc.devRef .tc main_arg4) : S64.Idx → EReal) = A4 m c :=
  (W4_of_ne m ρ c main_arg4 (by decide)).trans (w3_arg4 m ρ c)
theorem w4_v7 (c : Dev nD) : (W4 m ρ c (Proc.devRef .tc main_v7) : S100000x1.Idx → EReal) = Cert.ReferenceIdeal.Read.val_main_v7 (F := Ideal) (A2 m c) :=
  (W4_of_ne m ρ c main_v7 (by decide)).trans (w3_v7 m ρ c)
theorem w4_v26_0 (c : Dev nD) : (W4 m ρ c (Proc.devRef .tc main_v26_0) : S100000x64.Idx → EReal) = T1 m c :=
  (W4_arr m ρ c 4).trans ((Region0.array4 (V3 m ρ) c).trans (congrArg₂ combine1 (w3_v21 m ρ c) (w3_arg0 m ρ c)))
theorem w4_v26_1 (c : Dev nD) : (W4 m ρ c (Proc.devRef .tc main_v26_1) : S100000x64.Idx → EReal) = R1 m c :=
  (W4_arr m ρ c 5).trans ((Region0.array5 (V3 m ρ) c).trans (by
    rw [show V3 m ρ c main_arg0 = A0 m c from w3_arg0 m ρ c, show V3 m ρ c main_v21 = nbr (A0 m c) (A1 m c) (A2 m c) from w3_v21 m ρ c,
      show V3 m ρ c main_v23 = Cert.ReferenceIdeal.Read.val_main_v9 (F := Ideal) (A3 m c) from w3_v23 m ρ c,
      show V3 m ρ c main_v25 = Cert.ReferenceIdeal.Read.val_main_v33 (F := Ideal) (A3 m c) from w3_v25 m ρ c]))

/-! ## At the second region's entry -/

theorem w5_arg0 (c : Dev nD) : (W5 m ρ c (Proc.devRef .tc main_arg0) : S100000x64.Idx → EReal) = A0 m c := by
  show StableHlo.after hostOps1 (W4 m ρ c) (Proc.devRef .tc main_arg0) = _
  after_results_simp
  simp only [w4_arg0 m ρ c]
  try rfl
theorem w5_arg1 (c : Dev nD) : (W5 m ρ c (Proc.devRef .tc main_arg1) : S1600000.Idx → BitVec 32) = A1 m c := by
  show StableHlo.after hostOps1 (W4 m ρ c) (Proc.devRef .tc main_arg1) = _
  after_results_simp
  simp only [w4_arg1 m ρ c]
  try rfl
theorem w5_arg2 (c : Dev nD) : (W5 m ρ c (Proc.devRef .tc main_arg2) : S1600000.Idx → BitVec 32) = A2 m c := by
  show StableHlo.after hostOps1 (W4 m ρ c) (Proc.devRef .tc main_arg2) = _
  after_results_simp
  simp only [w4_arg2 m ρ c]
  try rfl
theorem w5_arg3 (c : Dev nD) : (W5 m ρ c (Proc.devRef .tc main_arg3) : S4x64x64.Idx → EReal) = A3 m c := by
  show StableHlo.after hostOps1 (W4 m ρ c) (Proc.devRef .tc main_arg3) = _
  after_results_simp
  simp only [w4_arg3 m ρ c]
  try rfl
theorem w5_arg4 (c : Dev nD) : (W5 m ρ c (Proc.devRef .tc main_arg4) : S64.Idx → EReal) = A4 m c := by
  show StableHlo.after hostOps1 (W4 m ρ c) (Proc.devRef .tc main_arg4) = _
  after_results_simp
  simp only [w4_arg4 m ρ c]
  try rfl
theorem w5_v7 (c : Dev nD) : (W5 m ρ c (Proc.devRef .tc main_v7) : S100000x1.Idx → EReal) = Cert.ReferenceIdeal.Read.val_main_v7 (F := Ideal) (A2 m c) := by
  show StableHlo.after hostOps1 (W4 m ρ c) (Proc.devRef .tc main_v7) = _
  after_results_simp
  simp only [w4_v7 m ρ c]
  try rfl
theorem w5_v26_0 (c : Dev nD) : (W5 m ρ c (Proc.devRef .tc main_v26_0) : S100000x64.Idx → EReal) = T1 m c := by
  show StableHlo.after hostOps1 (W4 m ρ c) (Proc.devRef .tc main_v26_0) = _
  after_results_simp
  simp only [w4_v26_0 m ρ c]
  try rfl
theorem w5_v26_1 (c : Dev nD) : (W5 m ρ c (Proc.devRef .tc main_v26_1) : S100000x64.Idx → EReal) = R1 m c := by
  show StableHlo.after hostOps1 (W4 m ρ c) (Proc.devRef .tc main_v26_1) = _
  after_results_simp
  simp only [w4_v26_1 m ρ c]
  try rfl
theorem w5_v40 (c : Dev nD) : (W5 m ρ c (Proc.devRef .tc main_v40) : S100000x64.Idx → EReal) = nbr (T1 m c) (A1 m c) (A2 m c) := by
  show StableHlo.after hostOps1 (W4 m ρ c) (Proc.devRef .tc main_v40) = _
  after_results_simp
  simp only [w4_v26_0 m ρ c, w4_v7 m ρ c, w4_arg1 m ρ c, w4_arg2 m ρ c]
  try rfl
theorem w5_v42 (c : Dev nD) : (W5 m ρ c (Proc.devRef .tc main_v42) : S64x64.Idx → EReal) = Cert.ReferenceIdeal.Read.val_main_v59 (F := Ideal) (A3 m c) := by
  show StableHlo.after hostOps1 (W4 m ρ c) (Proc.devRef .tc main_v42) = _
  after_results_simp
  simp only [w4_arg3 m ρ c]
  try rfl

/-! ## At the second region's exit -/

theorem w6_v26_0 (c : Dev nD) : (W6 m ρ c (Proc.devRef .tc main_v26_0) : S100000x64.Idx → EReal) = T1 m c :=
  (W6_arr m ρ c 1).trans (((dat1 (V5 m ρ) c).arrAt_in 1 rfl _).trans ((A_eq1 (V5 m ρ) c 1).trans (w5_v26_0 m ρ c)))
theorem w6_arg1 (c : Dev nD) : (W6 m ρ c (Proc.devRef .tc main_arg1) : S1600000.Idx → BitVec 32) = A1 m c :=
  (W6_of_ne m ρ c main_arg1 (by decide)).trans (w5_arg1 m ρ c)
theorem w6_arg2 (c : Dev nD) : (W6 m ρ c (Proc.devRef .tc main_arg2) : S1600000.Idx → BitVec 32) = A2 m c :=
  (W6_of_ne m ρ c main_arg2 (by decide)).trans (w5_arg2 m ρ c)
theorem w6_arg3 (c : Dev nD) : (W6 m ρ c (Proc.devRef .tc main_arg3) : S4x64x64.Idx → EReal) = A3 m c :=
  (W6_of_ne m ρ c main_arg3 (by decide)).trans (w5_arg3 m ρ c)
theorem w6_arg4 (c : Dev nD) : (W6 m ρ c (Proc.devRef .tc main_arg4) : S64.Idx → EReal) = A4 m c :=
  (W6_of_ne m ρ c main_arg4 (by decide)).trans (w5_arg4 m ρ c)
theorem w6_v7 (c : Dev nD) : (W6 m ρ c (Proc.devRef .tc main_v7) : S100000x1.Idx → EReal) = Cert.ReferenceIdeal.Read.val_main_v7 (F := Ideal) (A2 m c) :=
  (W6_of_ne m ρ c main_v7 (by decide)).trans (w5_v7 m ρ c)
theorem w6_v43_0 (c : Dev nD) : (W6 m ρ c (Proc.devRef .tc main_v43_0) : S100000x64.Idx → EReal) = T2 m c :=
  (W6_arr m ρ c 5).trans ((Region1.array5 (V5 m ρ) c).trans (by
    rw [show V5 m ρ c main_v40 = nbr (T1 m c) (A1 m c) (A2 m c) from w5_v40 m ρ c, show V5 m ρ c main_v26_0 = T1 m c from w5_v26_0 m ρ c,
      show V5 m ρ c main_arg0 = A0 m c from w5_arg0 m ρ c]))
theorem w6_v43_1 (c : Dev nD) : (W6 m ρ c (Proc.devRef .tc main_v43_1) : S100000x64.Idx → EReal) = R2 m c :=
  (W6_arr m ρ c 6).trans ((Region1.array6 (V5 m ρ) c).trans (by
    rw [show V5 m ρ c main_v40 = nbr (T1 m c) (A1 m c) (A2 m c) from w5_v40 m ρ c, show V5 m ρ c main_v26_0 = T1 m c from w5_v26_0 m ρ c,
      show V5 m ρ c main_arg0 = A0 m c from w5_arg0 m ρ c, show V5 m ρ c main_v26_1 = R1 m c from w5_v26_1 m ρ c,
      show V5 m ρ c main_v42 = Cert.ReferenceIdeal.Read.val_main_v59 (F := Ideal) (A3 m c) from w5_v42 m ρ c]))

/-! ## At the third region's entry -/

theorem w7_v26_0 (c : Dev nD) : (W7 m ρ c (Proc.devRef .tc main_v26_0) : S100000x64.Idx → EReal) = T1 m c := by
  show StableHlo.after hostOps2 (W6 m ρ c) (Proc.devRef .tc main_v26_0) = _
  after_results_simp
  simp only [w6_v26_0 m ρ c]
  try rfl
theorem w7_v43_0 (c : Dev nD) : (W7 m ρ c (Proc.devRef .tc main_v43_0) : S100000x64.Idx → EReal) = T2 m c := by
  show StableHlo.after hostOps2 (W6 m ρ c) (Proc.devRef .tc main_v43_0) = _
  after_results_simp
  simp only [w6_v43_0 m ρ c]
  try rfl
theorem w7_v43_1 (c : Dev nD) : (W7 m ρ c (Proc.devRef .tc main_v43_1) : S100000x64.Idx → EReal) = R2 m c := by
  show StableHlo.after hostOps2 (W6 m ρ c) (Proc.devRef .tc main_v43_1) = _
  after_results_simp
  simp only [w6_v43_1 m ρ c]
  try rfl
theorem w7_v57 (c : Dev nD) : (W7 m ρ c (Proc.devRef .tc main_v57) : S100000x64.Idx → EReal) = nbr (T2 m c) (A1 m c) (A2 m c) := by
  show StableHlo.after hostOps2 (W6 m ρ c) (Proc.devRef .tc main_v57) = _
  after_results_simp
  simp only [w6_v43_0 m ρ c, w6_v7 m ρ c, w6_arg1 m ρ c, w6_arg2 m ρ c]
  try rfl
theorem w7_v60 (c : Dev nD) : (W7 m ρ c (Proc.devRef .tc main_v60) : S64x64.Idx → EReal) = Cert.ReferenceIdeal.Read.val_main_v85 (F := Ideal) (A3 m c) := by
  show StableHlo.after hostOps2 (W6 m ρ c) (Proc.devRef .tc main_v60) = _
  after_results_simp
  simp only [w6_arg3 m ρ c]
  try rfl

/-- The bias reshaped to a row is the bias row. -/
theorem w7_v58 (c : Dev nD) : (W7 m ρ c (Proc.devRef .tc main_v58) : S1x64.Idx → EReal) = biasRow (A4 m c) := by
  show StableHlo.after hostOps2 (W6 m ρ c) (Proc.devRef .tc main_v58) = _
  after_results_simp
  simp only [w6_arg4 m ρ c]
  funext j
  obtain ⟨u, q, rfl⟩ : ∃ (u : Fin 1) (q : Fin 64), j = ix2 u q := ⟨j 0, j 1, eq_ix2 j⟩
  show shapeCast S1x64 (A4 m c) shapeCasts_S64_S1x64 (ix2 u q) = biasRow (A4 m c) (ix2 u q)
  rw [ValueIdx.shapeCast_a_1a_apply]
  show A4 m c (ix1 q) = A4 m c _
  refine congrArg (A4 m c) (funext fun a => ?_)
  match a with
  | ⟨0, _⟩ => rfl

/-! ## The result -/

/-- After the third region the result buffer holds the convolution of the five arguments. -/
theorem result_eq (c : Dev nD) : (W8 m ρ c (Proc.devRef .tc main_v61) : S100000x64.Idx → EReal) = result (A0 m c) (A1 m c) (A2 m c) (A3 m c) (A4 m c) :=
  (W8_arr m ρ c 6).trans ((Region2.array6 (V7 m ρ) c).trans (by
    rw [show V7 m ρ c main_v43_1 = R2 m c from w7_v43_1 m ρ c, show V7 m ρ c main_v57 = nbr (T2 m c) (A1 m c) (A2 m c) from w7_v57 m ρ c,
      show V7 m ρ c main_v43_0 = T2 m c from w7_v43_0 m ρ c, show V7 m ρ c main_v26_0 = T1 m c from w7_v26_0 m ρ c,
      show V7 m ρ c main_v60 = Cert.ReferenceIdeal.Read.val_main_v85 (F := Ideal) (A3 m c) from w7_v60 m ρ c,
      show V7 m ρ c main_v58 = biasRow (A4 m c) from w7_v58 m ρ c]
    rfl))

end Cert.KernelIdeal.Glue

end
-- ==== Proof.lean ====
/-
  A Chebyshev graph convolution of order 3 (K = 4 weight matrices) on 100000 nodes with 64 channels and 1.6 million
  edges: the kernel program against its reference, equal over the extended reals.

  Both programs compute the degree normalisation and, three times, the normalised neighbourhood sum `N(·)` (a gather
  along the edges' sources and a scatter-add into their destinations) by the same host operations. The kernel program
  puts everything else in three kernels tiled over the nodes in 20 blocks of 5000 rows:
    kernel 1:  T1 = -1·N(x) + 0·x,               r1 = x·W0 + T1·W1
    kernel 2:  T2 = (-2·N(T1) + 0·T1) - x,       r2 = r1 + T2·W2
    kernel 3:  T3 = (-2·N(T2) + 0·T2) - T1,      out = (r2 + T3·W3) + b
  while the reference writes T1 = (-2·N(x))/2 + x·0, T2 = ((-4·N(T1))/2 + T1·0) - x, T3 likewise, and adds the four
  products and the bias in the same order. At the extended reals the changes of float format are the identity, a
  block product accumulated into zero and the host's dot product are the same sum over the 64 channels, and
  (-2·h)/2 = -1·h, (-4·h)/2 = -2·h hold for every extended real h (the quotient by 2 is the product with one half, and
  multiplication is associative and commutative), so no finiteness of the inputs is used.

  The modules: ChebLaws (the two scaling laws), ChebSpec (the convolution as whole-array functions), BlockIndex (where a
  row block sits in a node array), BodyValues (what each kernel body stores, entry by entry), Region0 / Region1 / Region2
  (each region's output arrays as whole-array functions of the arrays it finds), KernelRun (the kernel program's run with
  its result named), Reference (the reference's result is the convolution), HostGlue (the arrays between the regions,
  and the kernel program's result is the convolution). Here: the five claims.
-/
import proofs.«128678_j82772609728706_1_alg».proof.Defs
import proofs.«128678_j82772609728706_1_alg».proof.Proof.Gen.Kernel
import proofs.«128678_j82772609728706_1_alg».proof.Proof.Gen.Kernel.Frame
import proofs.«128678_j82772609728706_1_alg».proof.Proof.Gen.KernelIdeal
import proofs.«128678_j82772609728706_1_alg».proof.Proof.Gen.KernelIdeal.Frame
import proofs.«128678_j82772609728706_1_alg».proof.Proof.Gen.ReferenceIdeal
import proofs.«128678_j82772609728706_1_alg».proof.Proof.Gen.ReferenceIdeal.Run
import proofs.«128678_j82772609728706_1_alg».proof.Proof.Gen.ReferenceIdeal.Read
import proofs.«128678_j82772609728706_1_alg».proof.Proof.Gen.Pre_finite_inputs
import proofs.«128678_j82772609728706_1_alg».proof.Proof.KernelRun
import proofs.«128678_j82772609728706_1_alg».proof.Proof.Reference
import proofs.«128678_j82772609728706_1_alg».proof.Proof.HostGlue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote no operation. -/
theorem preserves : Cert.preserves_Kernel_KernelIdeal := trivial

/-- From memories agreeing on the five arguments both programs end with the convolution of those arguments in their
    result arrays: the kernel program's three regions and the host operations between them read back to it, and the
    reference's operations read at an index are it. -/
theorem algebraic : Cert.algebraic_KernelIdeal_ReferenceIdeal := by
  intro m ρ m' ρ' _ hagree
  refine ⟨fun c => Cert.Cheb.result (Cert.KernelIdeal.Glue.A0 m c) (Cert.KernelIdeal.Glue.A1 m c) (Cert.KernelIdeal.Glue.A2 m c)
    (Cert.KernelIdeal.Glue.A3 m c) (Cert.KernelIdeal.Glue.A4 m c), ?_, ?_⟩
  · exact (θ_run Cert.KernelIdeal.defs _ _).mono
      (fun _ h c => ⟨(h c).1.trans (Cert.KernelIdeal.Glue.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v90_eq, Cert.Cheb.reference_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
